-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S8x1 : Shape := ⟨2, ![8, 1]⟩
abbrev S64x64 : Shape := ⟨2, ![64, 64]⟩
abbrev S1000000 : Shape := ⟨1, ![1000000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S8x1 : S_.BroadcastsInDim S8x1 (![] : Fin 0 → Fin S8x1.rank)
  reducesTo_S8x1_S_d0_1 : S8x1.ReducesTo [0, 1] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  main_v23

def fn {F : FTy → Type} [FloatOps F] (main_arg0 : FVec F S100000x64 .f32) (main_arg1 : FVec F S8x1 .f32) (main_arg2 : FVec F S64x64 .f32) (main_arg3 : FVec F S64x64 .f32) (main_arg4 : FVec F S64x64 .f32) (main_arg5 : IVec S1000000 32) (main_arg6 : IVec S1000000 32) (main_arg7 : IVec S1000000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S8x1 .f32 := Host.absf main_arg1
  let main_cst_0 : FVec F S_ .f32 := constant S_ .f32 0x7F800000#32
  let main_v5 : FVec F S8x1 .f32 := broadcastInDim S8x1 ![] bcast_S_S8x1 main_cst_0
  let main_v6 : IVec S8x1 1 := cmpf .olt main_v4 main_v5
  let main_c_1 : IVec S_ 1 := constantI S_ 1 1#1
  let main_v7 : IVec S_ 1 := (fun x v => Host.reduce IntOp.andi x v reducesTo_S8x1_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S100000x64 : Shape := ⟨2, ![100000, 64]⟩
abbrev S8x1 : Shape := ⟨2, ![8, 1]⟩
abbrev S64x64 : Shape := ⟨2, ![64, 64]⟩
abbrev S1000000 : Shape := ⟨1, ![1000000]⟩
abbrev S_ : Shape := ⟨0, ![]⟩
abbrev S1000000x1 : Shape := ⟨2, ![1000000, 1]⟩
abbrev S100000 : Shape := ⟨1, ![100000]⟩
abbrev S100000x1 : Shape := ⟨2, ![100000, 1]⟩
abbrev S1000000x64 : Shape := ⟨2, ![1000000, 64]⟩
abbrev S100000x192 : Shape := ⟨2, ![100000, 192]⟩
abbrev S4000x64 : Shape := ⟨2, ![4000, 64]⟩
abbrev S4000x192 : Shape := ⟨2, ![4000, 192]⟩

abbrev nBuf : Space → Nat
  | .hbm => 82
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S8x1, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S1000000, .i32⟩
  | .hbm, ⟨6, _⟩ => ⟨S1000000, .i32⟩
  | .hbm, ⟨7, _⟩ => ⟨S1000000, .i32⟩
  | .hbm, ⟨8, _⟩ => ⟨S_, .f32⟩
  | .hbm, ⟨9, _⟩ => ⟨S8x1, .f32⟩
  | .hbm, ⟨10, _⟩ => ⟨S8x1, .f32⟩
  | .hbm, ⟨11, _⟩ => ⟨S_, .f32⟩
  | .hbm, ⟨12, _⟩ => ⟨S8x1, .f32⟩
  | .hbm, ⟨13, _⟩ => ⟨S8x1, .i1⟩
  | .hbm, ⟨14, _⟩ => ⟨S_, .f32⟩
  | .hbm, ⟨15, _⟩ => ⟨S8x1, .f32⟩
  | .hbm, ⟨16, _⟩ => ⟨S8x1, .f32⟩
  | .hbm, ⟨17, _⟩ => ⟨S8x1, .f32⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S_, .i32⟩
  | .hbm, ⟨22, _⟩ => ⟨S1000000, .i32⟩
  | .hbm, ⟨23, _⟩ => ⟨S1000000, .i1⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S1000000, .i32⟩
  | .hbm, ⟨28, _⟩ => ⟨S1000000x1, .i32⟩
  | .hbm, ⟨29, _⟩ => ⟨S1000000x1, .f32⟩
  | .hbm, ⟨30, _⟩ => ⟨S1000000, .f32⟩
  | .hbm, ⟨31, _⟩ => ⟨S_, .f32⟩
  | .hbm, ⟨32, _⟩ => ⟨S100000, .f32⟩
  | .hbm, ⟨33, _⟩ => ⟨S1000000x1, .i32⟩
  | .hbm, ⟨34, _⟩ => ⟨S100000, .f32⟩
  | .hbm, ⟨35, _⟩ => ⟨S_, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S100000x1, .f32⟩
  | .hbm, ⟨43, _⟩ => ⟨S100000x64, .f32⟩
  | .hbm, ⟨44, _⟩ => ⟨S100000x64, .f32⟩
  | .hbm, ⟨45, _⟩ => ⟨S100000x64, .bf16⟩
  | .hbm, ⟨46, _⟩ => ⟨S_, .i32⟩
  | .hbm, ⟨47, _⟩ => ⟨S1000000, .i32⟩
  | .hbm, ⟨48, _⟩ => ⟨S1000000, .i1⟩
  | .hbm, ⟨49, _⟩ => ⟨S_, .i32⟩
  | .hbm, ⟨50, _⟩ => ⟨S1000000, .i32⟩
  | .hbm, ⟨51, _⟩ => ⟨S1000000, .i32⟩
  | .hbm, ⟨52, _⟩ => ⟨S1000000, .i32⟩
  | .hbm, ⟨53, _⟩ => ⟨S1000000x1, .i32⟩
  | .hbm, ⟨54, _⟩ => ⟨S1000000x64, .bf16⟩
  | .hbm, ⟨55, _⟩ => ⟨S1000000x64, .f32⟩
  | .hbm, ⟨56, _⟩ => ⟨S_, .f32⟩
  | .hbm, ⟨57, _⟩ => ⟨S100000x64, .f32⟩
  | .hbm, ⟨58, _⟩ => ⟨S1000000x1, .i32⟩
  | .hbm, ⟨59, _⟩ => ⟨S100000x64, .f32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S100000x64, .f32⟩
  | .hbm, ⟨64, _⟩ => ⟨S100000x64, .bf16⟩
  | .hbm, ⟨65, _⟩ => ⟨S_, .i32⟩
  | .hbm, ⟨66, _⟩ => ⟨S1000000, .i32⟩
  | .hbm, ⟨67, _⟩ => ⟨S1000000, .i1⟩
  | .hbm, ⟨68, _⟩ => ⟨S_, .i32⟩
  | .hbm, ⟨69, _⟩ => ⟨S1000000, .i32⟩
  | .hbm, ⟨70, _⟩ => ⟨S1000000, .i32⟩
  | .hbm, ⟨71, _⟩ => ⟨S1000000, .i32⟩
  | .hbm, ⟨72, _⟩ => ⟨S1000000x1, .i32⟩
  | .hbm, ⟨73, _⟩ => ⟨S1000000x64, .bf16⟩
  | .hbm, ⟨74, _⟩ => ⟨S1000000x64, .f32⟩
  | .hbm, ⟨75, _⟩ => ⟨S_, .f32⟩
  | .hbm, ⟨76, _⟩ => ⟨S100000x64, .f32⟩
  | .hbm, ⟨77, _⟩ => ⟨S1000000x1, .i32⟩
  | .hbm, ⟨78, _⟩ => ⟨S100000x64, .f32⟩
  | .hbm, ⟨79, _⟩ => ⟨S100000x64, .f32⟩
  | .hbm, ⟨80, _⟩ => ⟨S100000x64, .f32⟩
  | .hbm, ⟨81, _⟩ => ⟨S100000x192, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S64x64, .f32⟩
  | .local _ .vmem, ⟨7, _⟩ => ⟨S64x64, .f32⟩
  | .local _ .vmem, ⟨8, _⟩ => ⟨S64x64, .f32⟩
  | .local _ .vmem, ⟨9, _⟩ => ⟨S4000x192, .f32⟩
  | .local _ .vmem, ⟨10, _⟩ => ⟨S4000x192, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_v2 : Ref sig .tc := ⟨.hbm, 17, rfl⟩
abbrev main_c : Ref sig .tc := ⟨.hbm, 18, rfl⟩
abbrev main_v3 : Ref sig .tc := ⟨.hbm, 19, rfl⟩
abbrev main_v4 : Ref sig .tc := ⟨.hbm, 20, rfl⟩
abbrev main_c_0 : Ref sig .tc := ⟨.hbm, 21, rfl⟩
abbrev main_v5 : Ref sig .tc := ⟨.hbm, 22, rfl⟩
abbrev main_v6 : Ref sig .tc := ⟨.hbm, 23, rfl⟩
abbrev main_c_1 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_3 : Ref sig .tc := ⟨.hbm, 35, rfl⟩
abbrev main_call1_v0 : Ref sig .tc := ⟨.hbm, 36, rfl⟩
abbrev main_call1_v1 : Ref sig .tc := ⟨.hbm, 37, rfl⟩
abbrev main_v16 : Ref sig .tc := ⟨.hbm, 38, rfl⟩
abbrev main_cst_4 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_5 : Ref sig .tc := ⟨.hbm, 46, rfl⟩
abbrev main_v23 : Ref sig .tc := ⟨.hbm, 47, rfl⟩
abbrev main_v24 : Ref sig .tc := ⟨.hbm, 48, rfl⟩
abbrev main_c_6 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_7 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_c_8 : Ref sig .tc := ⟨.hbm, 65, rfl⟩
abbrev main_v39 : Ref sig .tc := ⟨.hbm, 66, rfl⟩
abbrev main_v40 : Ref sig .tc := ⟨.hbm, 67, rfl⟩
abbrev main_c_9 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_10 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S8x1 : S_.BroadcastsInDim S8x1 (![] : Fin 0 → Fin S8x1.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  shapeCasts_S1000000x1_S1000000 : S1000000x1.ShapeCasts S1000000
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bitsLt_bf16_f32 : FTy.bits .bf16 < FTy.bits .f32
  bcast_S_S100000x64 : S_.BroadcastsInDim S100000x64 (![] : Fin 0 → Fin S100000x64.rank)
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S64x64_S64x64_0_0 : ∀ a, (![0, 0] : Fin 2 → Nat) a + S64x64.size a ≤ S64x64.size a
  h_S64x64 : 0 < S64x64.numel
  concatenates_S4000x64_S4000x64_S4000x64_S4000x192_d1 : Shape.Concatenates [S4000x64, S4000x64, S4000x64] S4000x192 1
  inb_S4000x192_S4000x192_0_0 : ∀ a, (![0, 0] : Fin 2 → Nat) a + S4000x192.size a ≤ S4000x192.size a
  h_S4000x192 : 0 < S4000x192.numel
  gather_S8x1_S1000000x1_S1000000x1_1_0_n_n_0_1_11_wf : GatherDims.WF S8x1 S1000000x1 S1000000x1 [1] [0] [] [0] [] 1 ![1, 1]
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S4000x64_S64x64_S4000x64_1_0_0_1_n_n_wf : DotDims.WF S4000x64 S64x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .f32 = 32 ∨ (Rect.block (s := S100000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x192.size a ≤ S100000x192.size a
  hwx0_6 : ∀ i : grid0.Coords, EltTy.bits .f32 = 32 ∨ (Rect.block (s := S100000x192) S4000x192.size (cc0_transform_6 i) (hinb0_6 i)).WholeWords (EltTy.packing .f32)

variable [Facts₀]

def gather_S8x1_S1000000x1_S1000000x1_1_0_n_n_0_1_11 : GatherDims S8x1 S1000000x1 S1000000x1 where
  offsetDims := [1]
  collapsedSliceDims := [0]
  operandBatchingDims := []
  startIndicesBatchingDims := []
  startIndexMap := [0]
  indexVectorDim := 1
  sliceSizes := ![1, 1]
  wf := gather_S8x1_S1000000x1_S1000000x1_1_0_n_n_0_1_11_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v51) S4000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v52) S4000x192.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x64 : Shape := ⟨2, ![100000, 64]⟩
abbrev S8x1 : Shape := ⟨2, ![8, 1]⟩
abbrev S64x64 : Shape := ⟨2, ![64, 64]⟩
abbrev S1000000 : Shape := ⟨1, ![1000000]⟩
abbrev S_ : Shape := ⟨0, ![]⟩
abbrev S1000000x1 : Shape := ⟨2, ![1000000, 1]⟩
abbrev S100000 : Shape := ⟨1, ![100000]⟩
abbrev S100000x1 : Shape := ⟨2, ![100000, 1]⟩
abbrev S1000000x64 : Shape := ⟨2, ![1000000, 64]⟩
abbrev S100000x192 : Shape := ⟨2, ![100000, 192]⟩

abbrev nBuf : Space → Nat
  | .hbm => 81
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S8x1, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S1000000, .i32⟩
  | .hbm, ⟨6, _⟩ => ⟨S1000000, .i32⟩
  | .hbm, ⟨7, _⟩ => ⟨S1000000, .i32⟩
  | .hbm, ⟨8, _⟩ => ⟨S_, .f32⟩
  | .hbm, ⟨9, _⟩ => ⟨S8x1, .f32⟩
  | .hbm, ⟨10, _⟩ => ⟨S8x1, .f32⟩
  | .hbm, ⟨11, _⟩ => ⟨S_, .f32⟩
  | .hbm, ⟨12, _⟩ => ⟨S8x1, .f32⟩
  | .hbm, ⟨13, _⟩ => ⟨S8x1, .i1⟩
  | .hbm, ⟨14, _⟩ => ⟨S_, .f32⟩
  | .hbm, ⟨15, _⟩ => ⟨S8x1, .f32⟩
  | .hbm, ⟨16, _⟩ => ⟨S8x1, .f32⟩
  | .hbm, ⟨17, _⟩ => ⟨S8x1, .f32⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S_, .i32⟩
  | .hbm, ⟨22, _⟩ => ⟨S1000000, .i32⟩
  | .hbm, ⟨23, _⟩ => ⟨S1000000, .i1⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S1000000, .i32⟩
  | .hbm, ⟨28, _⟩ => ⟨S1000000x1, .i32⟩
  | .hbm, ⟨29, _⟩ => ⟨S1000000x1, .f32⟩
  | .hbm, ⟨30, _⟩ => ⟨S1000000, .f32⟩
  | .hbm, ⟨31, _⟩ => ⟨S_, .f32⟩
  | .hbm, ⟨32, _⟩ => ⟨S100000, .f32⟩
  | .hbm, ⟨33, _⟩ => ⟨S1000000x1, .i32⟩
  | .hbm, ⟨34, _⟩ => ⟨S100000, .f32⟩
  | .hbm, ⟨35, _⟩ => ⟨S_, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S100000x1, .f32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S_, .i32⟩
  | .hbm, ⟨47, _⟩ => ⟨S1000000, .i32⟩
  | .hbm, ⟨48, _⟩ => ⟨S1000000, .i1⟩
  | .hbm, ⟨49, _⟩ => ⟨S_, .i32⟩
  | .hbm, ⟨50, _⟩ => ⟨S1000000, .i32⟩
  | .hbm, ⟨51, _⟩ => ⟨S1000000, .i32⟩
  | .hbm, ⟨52, _⟩ => ⟨S1000000, .i32⟩
  | .hbm, ⟨53, _⟩ => ⟨S1000000x1, .i32⟩
  | .hbm, ⟨54, _⟩ => ⟨S1000000x64, .f32⟩
  | .hbm, ⟨55, _⟩ => ⟨S_, .f32⟩
  | .hbm, ⟨56, _⟩ => ⟨S100000x64, .f32⟩
  | .hbm, ⟨57, _⟩ => ⟨S1000000x1, .i32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S100000x64, .f32⟩
  | .hbm, ⟨64, _⟩ => ⟨S_, .i32⟩
  | .hbm, ⟨65, _⟩ => ⟨S1000000, .i32⟩
  | .hbm, ⟨66, _⟩ => ⟨S1000000, .i1⟩
  | .hbm, ⟨67, _⟩ => ⟨S_, .i32⟩
  | .hbm, ⟨68, _⟩ => ⟨S1000000, .i32⟩
  | .hbm, ⟨69, _⟩ => ⟨S1000000, .i32⟩
  | .hbm, ⟨70, _⟩ => ⟨S1000000, .i32⟩
  | .hbm, ⟨71, _⟩ => ⟨S1000000x1, .i32⟩
  | .hbm, ⟨72, _⟩ => ⟨S1000000x64, .f32⟩
  | .hbm, ⟨73, _⟩ => ⟨S_, .f32⟩
  | .hbm, ⟨74, _⟩ => ⟨S100000x64, .f32⟩
  | .hbm, ⟨75, _⟩ => ⟨S1000000x1, .i32⟩
  | .hbm, ⟨76, _⟩ => ⟨S100000x64, .f32⟩
  | .hbm, ⟨77, _⟩ => ⟨S100000x64, .f32⟩
  | .hbm, ⟨78, _⟩ => ⟨S100000x64, .f32⟩
  | .hbm, ⟨79, _⟩ => ⟨S100000x64, .f32⟩
  | .hbm, ⟨80, _⟩ => ⟨S100000x192, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_v2 : Ref sig .tc := ⟨.hbm, 17, rfl⟩
abbrev main_c : Ref sig .tc := ⟨.hbm, 18, rfl⟩
abbrev main_v3 : Ref sig .tc := ⟨.hbm, 19, rfl⟩
abbrev main_v4 : Ref sig .tc := ⟨.hbm, 20, rfl⟩
abbrev main_c_0 : Ref sig .tc := ⟨.hbm, 21, rfl⟩
abbrev main_v5 : Ref sig .tc := ⟨.hbm, 22, rfl⟩
abbrev main_v6 : Ref sig .tc := ⟨.hbm, 23, rfl⟩
abbrev main_c_1 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_3 : Ref sig .tc := ⟨.hbm, 35, rfl⟩
abbrev main_call1_v0 : Ref sig .tc := ⟨.hbm, 36, rfl⟩
abbrev main_call1_v1 : Ref sig .tc := ⟨.hbm, 37, rfl⟩
abbrev main_v16 : Ref sig .tc := ⟨.hbm, 38, rfl⟩
abbrev main_cst_4 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_5 : Ref sig .tc := ⟨.hbm, 46, rfl⟩
abbrev main_v23 : Ref sig .tc := ⟨.hbm, 47, rfl⟩
abbrev main_v24 : Ref sig .tc := ⟨.hbm, 48, rfl⟩
abbrev main_c_6 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_7 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_8 : Ref sig .tc := ⟨.hbm, 64, rfl⟩
abbrev main_v38 : Ref sig .tc := ⟨.hbm, 65, rfl⟩
abbrev main_v39 : Ref sig .tc := ⟨.hbm, 66, rfl⟩
abbrev main_c_9 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_10 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩

abbrev nD : Nat := 1
abbrev τ : Topo := Topo.v7x

variable {F : FTy → Type} [FloatOps F]

class Facts₀ : Prop where
  bcast_S_S8x1 : S_.BroadcastsInDim S8x1 (![] : Fin 0 → Fin S8x1.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  shapeCasts_S1000000x1_S1000000 : S1000000x1.ShapeCasts S1000000
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  concatenates_S100000x64_S100000x64_S100000x64_S100000x192_d1 : Shape.Concatenates [S100000x64, S100000x64, S100000x64] S100000x192 1
  gather_S8x1_S1000000x1_S1000000x1_1_0_n_n_0_1_11_wf : GatherDims.WF S8x1 S1000000x1 S1000000x1 [1] [0] [] [0] [] 1 ![1, 1]
  scatter_S100000_S1000000x1_S1000000_n_0_0_1_wf : ScatterDims.WF S100000 S1000000x1 S1000000 [] [0] [0] 1
  dot_S100000x64_S64x64_S100000x64_1_0_0_1_n_n_wf : DotDims.WF S100000x64 S64x64 S100000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1

variable [Facts₀]

def gather_S8x1_S1000000x1_S1000000x1_1_0_n_n_0_1_11 : GatherDims S8x1 S1000000x1 S1000000x1 where
  offsetDims := [1]
  collapsedSliceDims := [0]
  operandBatchingDims := []
  startIndicesBatchingDims := []
  startIndexMap := [0]
  indexVectorDim := 1
  sliceSizes := ![1, 1]
  wf := gather_S8x1_S1000000x1_S1000000x1_1_0_n_n_0_1_11_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

class Facts : Prop extends Facts₀ where

variable [Facts]
-- ==== Proof.LibColumnConcat.lean ====
/-
  Three matrices of one shape laid side by side, read at an entry.

  When three `a × b` matrices are concatenated along their columns into an `a × n` matrix, the entry at row `k` and
  column `col` is: the first matrix's entry `(k, q)` when `col = q`, the second's when `col = b + q`, the third's when
  `col = b + b + q` (for `q < b`).  Each is the general fact that a concatenation at an index is the piece whose span
  along the axis contains the index's coordinate there, read at the coordinate less the widths before it.
-/
import Idealize.ShloMosaic.Lib.Pipeline.Value
import Idealize.ShloMosaic.Lib.ValueIdx

noncomputable section

namespace Cert.LibColumnConcat

open Idealize.ShloMosaic Idealize.ShloMosaic.ValueIdx

variable {α : Type} (a b n : Nat)
variable (x0 x1 x2 : (⟨2, ![a, b]⟩ : Shape).Idx → α)
variable (h : Shape.Concatenates [(⟨2, ![a, b]⟩ : Shape), ⟨2, ![a, b]⟩, ⟨2, ![a, b]⟩] ⟨2, ![a, n]⟩ (1 : Fin 2))

/-- A column inside the first piece's span reads the first piece. -/
theorem first (k : Fin a) (q : Fin b) (col : Fin n) (hc : col.val = q.val) :
    concatenate (⟨2, ![a, n]⟩ : Shape) (1 : Fin 2) [⟨(⟨2, ![a, b]⟩ : Shape), x0⟩, ⟨⟨2, ![a, b]⟩, x1⟩, ⟨⟨2, ![a, b]⟩, x2⟩] h (ix2 k col)
      = x0 (ix2 k q) :=
  concatenate_apply_piece (t := ⟨2, ![a, n]⟩) (1 : Fin 2) [⟨(⟨2, ![a, b]⟩ : Shape), x0⟩, ⟨⟨2, ![a, b]⟩, x1⟩, ⟨⟨2, ![a, b]⟩, x2⟩] h (ix2 k col) 0 (by show (0 : Nat) < 3; omega) ⟨2, ![a, b]⟩ x0 rfl rfl 0 rfl (ix2 k q)
    (fun d hd => by match d with | ⟨0, _⟩ => rfl | ⟨1, _⟩ => exact absurd rfl hd)
    (by show 0 + q.val = col.val; omega)

/-- A column inside the second piece's span reads the second piece. -/
theorem second (k : Fin a) (q : Fin b) (col : Fin n) (hc : col.val = b + q.val) :
    concatenate (⟨2, ![a, n]⟩ : Shape) (1 : Fin 2) [⟨(⟨2, ![a, b]⟩ : Shape), x0⟩, ⟨⟨2, ![a, b]⟩, x1⟩, ⟨⟨2, ![a, b]⟩, x2⟩] h (ix2 k col)
      = x1 (ix2 k q) :=
  concatenate_apply_piece (t := ⟨2, ![a, n]⟩) (1 : Fin 2) [⟨(⟨2, ![a, b]⟩ : Shape), x0⟩, ⟨⟨2, ![a, b]⟩, x1⟩, ⟨⟨2, ![a, b]⟩, x2⟩] h (ix2 k col) 1 (by show (1 : Nat) < 3; omega) ⟨2, ![a, b]⟩ x1 rfl rfl b (by simp) (ix2 k q)
    (fun d hd => by match d with | ⟨0, _⟩ => rfl | ⟨1, _⟩ => exact absurd rfl hd)
    (by show b + q.val = col.val; omega)

/-- A column inside the third piece's span reads the third piece. -/
theorem third (k : Fin a) (q : Fin b) (col : Fin n) (hc : col.val = b + b + q.val) :
    concatenate (⟨2, ![a, n]⟩ : Shape) (1 : Fin 2) [⟨(⟨2, ![a, b]⟩ : Shape), x0⟩, ⟨⟨2, ![a, b]⟩, x1⟩, ⟨⟨2, ![a, b]⟩, x2⟩] h (ix2 k col)
      = x2 (ix2 k q) :=
  concatenate_apply_piece (t := ⟨2, ![a, n]⟩) (1 : Fin 2) [⟨(⟨2, ![a, b]⟩ : Shape), x0⟩, ⟨⟨2, ![a, b]⟩, x1⟩, ⟨⟨2, ![a, b]⟩, x2⟩] h (ix2 k col) 2 (by show (2 : Nat) < 3; omega) ⟨2, ![a, b]⟩ x2 rfl rfl (b + b) (by simp) (ix2 k q)
    (fun d hd => by match d with | ⟨0, _⟩ => rfl | ⟨1, _⟩ => exact absurd rfl hd)
    (by show b + b + q.val = col.val; omega)

end Cert.LibColumnConcat

end
-- ==== Proof.LibPlainDot.lean ====
/-
  A plain matrix product read at an index, on the extended reals.

  For the dimension numbers of an M×K by K×N product (contract the left operand's axis 1 with the right operand's
  axis 0, no batch axis), the product at row `r`, column `n` is the sum over the K contraction positions of
  `l (r, k) · r' (k, n)`. The contraction index of the dimension record is a one-coordinate index; it is re-indexed by
  that coordinate, and the operand indices at an output index and a contraction position are read off coordinate by
  coordinate. Stated for a kernel's matrix unit accumulating into the zero splat and for a host `dot_general`.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The contraction shape of a plain product has one axis, -/
theorem contr_rank : (DotDims.plain M K N).contr.rank = 1 := rfl

/-- of extent K. -/
theorem contr_size : (DotDims.plain M K N).contr.size ⟨0, by rw [contr_rank]; exact Nat.one_pos⟩ = K := rfl

/-- The left operand's index at output index `j` and contraction position `k` is (row of `j`, `k`). -/
theorem lhsIdx_eq (j : (⟨2, ![M, N]⟩ : Shape).Idx) (k : Fin K) :
    (DotDims.plain M K N).lhsIdx j ((contrEquiv1 (DotDims.plain M K N) K (contr_rank M K N) (contr_size M K N)).symm k)
      = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand's index at output index `j` and contraction position `k` is (`k`, column of `j`). -/
theorem rhsIdx_eq (j : (⟨2, ![M, N]⟩ : Shape).Idx) (k : Fin K) :
    (DotDims.plain M K N).rhsIdx j ((contrEquiv1 (DotDims.plain M K N) K (contr_rank M K N) (contr_size M K N)).symm k)
      = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The sum over the record's contraction index is the sum over the K positions. -/
theorem sum_contr (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K (contr_rank M K N) (contr_size M K N)).symm]
  exact Finset.sum_congr rfl fun k _ =>
    congrArg₂ (fun a b => l a * r b) (lhsIdx_eq M K N j k) (rhsIdx_eq M K N j k)

/-- A kernel's matrix unit accumulating into the zero splat, at an index: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr M K N l r j)

/-- A host `dot_general` at an index: the same sum, whatever the precision and schedule keys. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr M K N l r j)

end Cert.LibPlainDot

end
-- ==== Proof.KernelBlock.lean ====
/-
  The kernel body's result at one entry of its output block.

  At a grid point the body holds three 4000 × 64 blocks `x0, x1, x2` (rows of the three hop features) and the three
  64 × 64 weight matrices `x3, x4, x5`, and stores the 4000 × 192 block whose columns are the three products side by
  side.  On the extended reals a change of float format is the identity and the matrix unit accumulating into zero is
  the plain sum of products, so the entry at row `p` and column `col` is

    ∑ k, x0 (p, k) · x3 (k, q)   when col = q,
    ∑ k, x1 (p, k) · x4 (k, q)   when col = 64 + q,
    ∑ k, x2 (p, k) · x5 (k, q)   when col = 128 + q        (q < 64).

  No law of arithmetic is used: each side is literally the same sum.
-/
import proofs.«112964_j41601053229994_2_alg».proof.Proof.Gen.KernelIdeal.Skeleton
import proofs.«112964_j41601053229994_2_alg».proof.Proof.LibColumnConcat
import proofs.«112964_j41601053229994_2_alg».proof.Proof.LibPlainDot
import Idealize.ShloMosaic.Lib.ValueIdx
import Idealize.ShloMosaic.Lib.Pipeline.Value

noncomputable section

namespace Cert.KernelBlock

open Idealize.ShloMosaic Idealize.ShloMosaic.ValueIdx Cert.KernelIdeal Cert.KernelIdeal.Gen

variable (x0 x1 x2 : Vec Ideal S4000x64 .f32) (x3 x4 x5 : Vec Ideal S64x64 .f32)

/-- A column of the first 64 reads the first product. -/
theorem entry_first (p : Fin 4000) (q : Fin 64) (col : Fin 192) (hc : col.val = q.val) :
    k0_pay1 (F := Ideal) x0 x1 x2 x3 x4 x5 (ix2 p col) = ∑ k : Fin 64, x0 (ix2 p k) * x3 (ix2 k q) := by
  unfold k0_pay1
  refine (Cert.LibColumnConcat.first 4000 64 192 _ _ _ _ p q col hc).trans ?_
  exact Cert.LibPlainDot.matmul_zero_apply 4000 64 64 none _ _ (ix2 p q)

/-- A column of the second 64 reads the second product; its left operand passes through a shape cast to its own
    shape, which changes nothing. -/
theorem entry_second (p : Fin 4000) (q : Fin 64) (col : Fin 192) (hc : col.val = 64 + q.val) :
    k0_pay1 (F := Ideal) x0 x1 x2 x3 x4 x5 (ix2 p col) = ∑ k : Fin 64, x1 (ix2 p k) * x4 (ix2 k q) := by
  unfold k0_pay1
  refine (Cert.LibColumnConcat.second 4000 64 192 _ _ _ _ p q col hc).trans ?_
  rw [shapeCast_self]
  exact Cert.LibPlainDot.matmul_zero_apply 4000 64 64 none _ _ (ix2 p q)

/-- A column of the last 64 reads the third product. -/
theorem entry_third (p : Fin 4000) (q : Fin 64) (col : Fin 192) (hc : col.val = 64 + 64 + q.val) :
    k0_pay1 (F := Ideal) x0 x1 x2 x3 x4 x5 (ix2 p col) = ∑ k : Fin 64, x2 (ix2 p k) * x5 (ix2 k q) := by
  unfold k0_pay1
  refine (Cert.LibColumnConcat.third 4000 64 192 _ _ _ _ p q col hc).trans ?_
  rw [shapeCast_self]
  exact Cert.LibPlainDot.matmul_zero_apply 4000 64 64 none _ _ (ix2 p q)

end Cert.KernelBlock

end
-- ==== Proof.Spec.lean ====
/-
  The result, as one function of the three hop features and the three weight matrices.

  For node features `h0, h1, h2` (100000 × 64 each: the input features and the features after one and two propagation
  hops) and weights `w0, w1, w2` (64 × 64 each), the result is the 100000 × 192 array whose columns are the three
  products `h0·w0`, `h1·w1`, `h2·w2` side by side.  It is written with the reference's own host operations (a
  `dot_general` contracting the left operand's columns with the right operand's rows, three of them concatenated
  along the columns), so the reference computes it by definition; the lemmas read it at an entry: at row `r` the column
  `q`, `64 + q` or `128 + q` (`q < 64`) holds `∑ k, h_i (r, k) · w_i (k, q)` for `i = 0, 1, 2`.
-/
import proofs.«112964_j41601053229994_2_alg».proof.Proof.Gen.ReferenceIdeal
import proofs.«112964_j41601053229994_2_alg».proof.Proof.LibColumnConcat
import proofs.«112964_j41601053229994_2_alg».proof.Proof.LibPlainDot
import Idealize.ShloMosaic.Lib.ValueIdx
import Idealize.ShloMosaic.Lib.Pipeline.Value

noncomputable section

namespace Cert.Spec

open Idealize.ShloMosaic Idealize.ShloMosaic.ValueIdx Cert.ReferenceIdeal Cert.ReferenceIdeal.Gen

/-- The three products side by side. -/
def out (h0 h1 h2 : FVec Ideal S100000x64 .f32) (w0 w1 w2 : FVec Ideal S64x64 .f32) : FVec Ideal S100000x192 .f32 :=
  concatenate S100000x192 1
    [⟨S100000x64, Host.dotGeneral (F := Ideal) dot_S100000x64_S64x64_S100000x64_1_0_0_1_n_n none h0 w0⟩,
     ⟨S100000x64, Host.dotGeneral (F := Ideal) dot_S100000x64_S64x64_S100000x64_1_0_0_1_n_n none h1 w1⟩,
     ⟨S100000x64, Host.dotGeneral (F := Ideal) dot_S100000x64_S64x64_S100000x64_1_0_0_1_n_n none h2 w2⟩]
    concatenates_S100000x64_S100000x64_S100000x64_S100000x192_d1

variable (h0 h1 h2 : FVec Ideal S100000x64 .f32) (w0 w1 w2 : FVec Ideal S64x64 .f32)

/-- A column of the first 64 holds the first product's entry. -/
theorem out_first (r : Fin 100000) (q : Fin 64) (col : Fin 192) (hc : col.val = q.val) :
    out h0 h1 h2 w0 w1 w2 (ix2 r col) = ∑ k : Fin 64, h0 (ix2 r k) * w0 (ix2 k q) := by
  unfold out
  refine (Cert.LibColumnConcat.first 100000 64 192 _ _ _ _ r q col hc).trans ?_
  exact Cert.LibPlainDot.dotGeneral_apply 100000 64 64 none _ _ _ (ix2 r q)

/-- A column of the second 64 holds the second product's entry. -/
theorem out_second (r : Fin 100000) (q : Fin 64) (col : Fin 192) (hc : col.val = 64 + q.val) :
    out h0 h1 h2 w0 w1 w2 (ix2 r col) = ∑ k : Fin 64, h1 (ix2 r k) * w1 (ix2 k q) := by
  unfold out
  refine (Cert.LibColumnConcat.second 100000 64 192 _ _ _ _ r q col hc).trans ?_
  exact Cert.LibPlainDot.dotGeneral_apply 100000 64 64 none _ _ _ (ix2 r q)

/-- A column of the last 64 holds the third product's entry. -/
theorem out_third (r : Fin 100000) (q : Fin 64) (col : Fin 192) (hc : col.val = 64 + 64 + q.val) :
    out h0 h1 h2 w0 w1 w2 (ix2 r col) = ∑ k : Fin 64, h2 (ix2 r k) * w2 (ix2 k q) := by
  unfold out
  refine (Cert.LibColumnConcat.third 100000 64 192 _ _ _ _ r q col hc).trans ?_
  exact Cert.LibPlainDot.dotGeneral_apply 100000 64 64 none _ _ _ (ix2 r q)

end Cert.Spec

end
-- ==== Proof.KernelReads.lean ====
/-
  The kernel's windows at a grid point, and one block against the whole arrays.

  At grid point `t` the three feature windows hold rows `4000·t … 4000·t + 3999` of the three feature arrays and the
  three weight windows hold the whole weight matrices (the printed index maps, decided over the 25 points).  If three
  blocks are rows `base + p` of three arrays and three blocks are the weight matrices, the body's result at `(p, col)` is
  the specification at `(base + p, col)`: a row of a product depends only on the same row of the left operand.
-/
import proofs.«112964_j41601053229994_2_alg».proof.Proof.Gen.KernelIdeal.Frame
import proofs.«112964_j41601053229994_2_alg».proof.Proof.KernelBlock
import proofs.«112964_j41601053229994_2_alg».proof.Proof.Spec

set_option maxRecDepth 16384

noncomputable section

namespace Cert.KernelReads

open Cert.KernelIdeal Cert.KernelIdeal.Gen Idealize.ShloMosaic Idealize.ShloMosaic.TcCoe Idealize.SL.Sem
open Idealize.ShloMosaic.ValueIdx

/-! ## One block against the whole arrays, over variables -/

/-- If three blocks are rows `base + p` of three arrays and three blocks are whole weight matrices, the body's result at
    `(p, col)` is the specification at `(base + p, col)`: in each of the three column ranges both are one sum over the
    contraction position, term by term equal. -/
theorem block_entry (x0 x1 x2 : Vec Ideal S4000x64 .f32) (x3 x4 x5 : Vec Ideal S64x64 .f32)
    (h0 h1 h2 : FVec Ideal Cert.ReferenceIdeal.S100000x64 .f32) (w0 w1 w2 : FVec Ideal Cert.ReferenceIdeal.S64x64 .f32)
    (base : Nat)
    (e0 : ∀ (p : Fin 4000) (r : Fin 100000) (k : Fin 64), r.val = base + p.val → x0 (ix2 p k) = h0 (ix2 r k))
    (e1 : ∀ (p : Fin 4000) (r : Fin 100000) (k : Fin 64), r.val = base + p.val → x1 (ix2 p k) = h1 (ix2 r k))
    (e2 : ∀ (p : Fin 4000) (r : Fin 100000) (k : Fin 64), r.val = base + p.val → x2 (ix2 p k) = h2 (ix2 r k))
    (e3 : ∀ (k q : Fin 64), x3 (ix2 k q) = w0 (ix2 k q))
    (e4 : ∀ (k q : Fin 64), x4 (ix2 k q) = w1 (ix2 k q))
    (e5 : ∀ (k q : Fin 64), x5 (ix2 k q) = w2 (ix2 k q))
    (p : Fin 4000) (col : Fin 192) (r : Fin 100000) (col' : Fin 192) (hr : r.val = base + p.val) (hcol : col'.val = col.val) :
    k0_pay1 (F := Ideal) x0 x1 x2 x3 x4 x5 (ix2 p col) = Cert.Spec.out h0 h1 h2 w0 w1 w2 (ix2 r col') := by
  have hlt : col.val < 192 := col.isLt
  rcases (by omega : col.val < 64 ∨ (64 ≤ col.val ∧ col.val < 128) ∨ 128 ≤ col.val) with h | h | h
  · rw [Cert.KernelBlock.entry_first x0 x1 x2 x3 x4 x5 p ⟨col.val, h⟩ col rfl,
      Cert.Spec.out_first h0 h1 h2 w0 w1 w2 r ⟨col.val, h⟩ col' hcol]
    exact Finset.sum_congr rfl fun k _ => by rw [e0 p r k hr, e3]
  · rw [Cert.KernelBlock.entry_second x0 x1 x2 x3 x4 x5 p ⟨col.val - 64, by omega⟩ col (by show col.val = 64 + (col.val - 64); omega),
      Cert.Spec.out_second h0 h1 h2 w0 w1 w2 r ⟨col.val - 64, by omega⟩ col' (by show col'.val = 64 + (col.val - 64); omega)]
    exact Finset.sum_congr rfl fun k _ => by rw [e1 p r k hr, e4]
  · rw [Cert.KernelBlock.entry_third x0 x1 x2 x3 x4 x5 p ⟨col.val - 128, by omega⟩ col (by show col.val = 64 + 64 + (col.val - 128); omega),
      Cert.Spec.out_third h0 h1 h2 w0 w1 w2 r ⟨col.val - 128, by omega⟩ col' (by show col'.val = 64 + 64 + (col.val - 128); omega)]
    exact Finset.sum_congr rfl fun k _ => by rw [e2 p r k hr, e5]

/-! ## The windows' blocks at a grid point

  Each read is proved for an arbitrary array first, so that the arrays the region finds — long compositions of host
  operations — are never looked into. -/

-- the fold of the host operations is cited, never computed
attribute [local irreducible] StableHlo.after

variable (m : (ℓ : Loc nD τ sig) → Buf (Elt Ideal) ℓ)

theorem hz : (![0, 0] : Fin 2 → Nat) = fun _ => 0 := funext fun a => by fin_cases a <;> rfl

/-- The printed index maps, decided over the 25 points: the three feature windows and the output window sit at block
    row `t`, block column 0; the three weight windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Feature window 0's block at point `t`, of ANY array `A`, read at `(p, k)`, is `A` at `(4000·t + p, k)`. -/
theorem rows0 (A : FVec Ideal S100000x64 .f32) (t : Fin cfg0.N) (p : Fin 4000) (r : Fin 100000) (k : Fin 64) (hr : r.val = t.val * 4000 + p.val) :
    ((cfg0.win 0).blk t).view.read (Elt Ideal) A (ix2 p k) = A (ix2 r k) := by
  have f := idx_facts t
  show A (((cfg0.win 0).blk t).view.emb (ix2 p k)) = A (ix2 r k)
  refine congrArg A (funext fun a => Fin.ext ?_)
  match a with
  | ⟨0, _⟩ => show win0_0.index t (0 : Fin 2) * 4000 + 1 * p.val = r.val; omega
  | ⟨1, _⟩ => show win0_0.index t (1 : Fin 2) * 64 + 1 * k.val = k.val; omega

/-- Window 0 stages the array `main_arg0`. -/
theorem arr0 : Pipeline.arrRef spec0 0 = main_arg0 := rfl

theorem read_feat0 (c : Dev nD) (t : Fin cfg0.N) (p : Fin 4000) (r : Fin 100000) (k : Fin 64) (hr : r.val = t.val * 4000 + p.val) :
    iblk m c 0 t (ix2 p k) = V m c main_arg0 (ix2 r k) :=
  rows0 (V m c main_arg0) t p r k hr

/-- Feature window 1's block at point `t`, of ANY array `A`, read at `(p, k)`, is `A` at `(4000·t + p, k)`. -/
theorem rows1 (A : FVec Ideal S100000x64 .f32) (t : Fin cfg0.N) (p : Fin 4000) (r : Fin 100000) (k : Fin 64) (hr : r.val = t.val * 4000 + p.val) :
    ((cfg0.win 1).blk t).view.read (Elt Ideal) A (ix2 p k) = A (ix2 r k) := by
  have f := idx_facts t
  show A (((cfg0.win 1).blk t).view.emb (ix2 p k)) = A (ix2 r k)
  refine congrArg A (funext fun a => Fin.ext ?_)
  match a with
  | ⟨0, _⟩ => show win0_1.index t (0 : Fin 2) * 4000 + 1 * p.val = r.val; omega
  | ⟨1, _⟩ => show win0_1.index t (1 : Fin 2) * 64 + 1 * k.val = k.val; omega

/-- Window 1 stages the array `main_v35`. -/
theorem arr1 : Pipeline.arrRef spec0 1 = main_v35 := rfl

theorem read_feat1 (c : Dev nD) (t : Fin cfg0.N) (p : Fin 4000) (r : Fin 100000) (k : Fin 64) (hr : r.val = t.val * 4000 + p.val) :
    iblk m c 1 t (ix2 p k) = V m c main_v35 (ix2 r k) :=
  rows1 (V m c main_v35) t p r k hr

/-- Feature window 2's block at point `t`, of ANY array `A`, read at `(p, k)`, is `A` at `(4000·t + p, k)`. -/
theorem rows2 (A : FVec Ideal S100000x64 .f32) (t : Fin cfg0.N) (p : Fin 4000) (r : Fin 100000) (k : Fin 64) (hr : r.val = t.val * 4000 + p.val) :
    ((cfg0.win 2).blk t).view.read (Elt Ideal) A (ix2 p k) = A (ix2 r k) := by
  have f := idx_facts t
  show A (((cfg0.win 2).blk t).view.emb (ix2 p k)) = A (ix2 r k)
  refine congrArg A (funext fun a => Fin.ext ?_)
  match a with
  | ⟨0, _⟩ => show win0_2.index t (0 : Fin 2) * 4000 + 1 * p.val = r.val; omega
  | ⟨1, _⟩ => show win0_2.index t (1 : Fin 2) * 64 + 1 * k.val = k.val; omega

/-- Window 2 stages the array `main_v51`. -/
theorem arr2 : Pipeline.arrRef spec0 2 = main_v51 := rfl

theorem read_feat2 (c : Dev nD) (t : Fin cfg0.N) (p : Fin 4000) (r : Fin 100000) (k : Fin 64) (hr : r.val = t.val * 4000 + p.val) :
    iblk m c 2 t (ix2 p k) = V m c main_v51 (ix2 r k) :=
  rows2 (V m c main_v51) t p r k hr

/-- Weight window 3's block at any point, of ANY array `A`, is `A` itself. -/
theorem whole3 (A : FVec Ideal S64x64 .f32) (t : Fin cfg0.N) (k q : Fin 64) :
    ((cfg0.win 3).blk t).view.read (Elt Ideal) A (ix2 k q) = A (ix2 k q) := by
  have f := idx_facts t
  show A (((cfg0.win 3).blk t).view.emb (ix2 k q)) = A (ix2 k q)
  refine congrArg A (funext fun a => Fin.ext ?_)
  match a with
  | ⟨0, _⟩ => show win0_3.index t (0 : Fin 2) * 64 + 1 * k.val = k.val; omega
  | ⟨1, _⟩ => show win0_3.index t (1 : Fin 2) * 64 + 1 * q.val = q.val; omega

/-- Window 3 stages the array `main_arg2`. -/
theorem arr3 : Pipeline.arrRef spec0 3 = main_arg2 := rfl

theorem read_w0 (c : Dev nD) (t : Fin cfg0.N) (k q : Fin 64) : iblk m c 3 t (ix2 k q) = V m c main_arg2 (ix2 k q) :=
  whole3 (V m c main_arg2) t k q

/-- Weight window 4's block at any point, of ANY array `A`, is `A` itself. -/
theorem whole4 (A : FVec Ideal S64x64 .f32) (t : Fin cfg0.N) (k q : Fin 64) :
    ((cfg0.win 4).blk t).view.read (Elt Ideal) A (ix2 k q) = A (ix2 k q) := by
  have f := idx_facts t
  show A (((cfg0.win 4).blk t).view.emb (ix2 k q)) = A (ix2 k q)
  refine congrArg A (funext fun a => Fin.ext ?_)
  match a with
  | ⟨0, _⟩ => show win0_4.index t (0 : Fin 2) * 64 + 1 * k.val = k.val; omega
  | ⟨1, _⟩ => show win0_4.index t (1 : Fin 2) * 64 + 1 * q.val = q.val; omega

/-- Window 4 stages the array `main_arg3`. -/
theorem arr4 : Pipeline.arrRef spec0 4 = main_arg3 := rfl

theorem read_w1 (c : Dev nD) (t : Fin cfg0.N) (k q : Fin 64) : iblk m c 4 t (ix2 k q) = V m c main_arg3 (ix2 k q) :=
  whole4 (V m c main_arg3) t k q

/-- Weight window 5's block at any point, of ANY array `A`, is `A` itself. -/
theorem whole5 (A : FVec Ideal S64x64 .f32) (t : Fin cfg0.N) (k q : Fin 64) :
    ((cfg0.win 5).blk t).view.read (Elt Ideal) A (ix2 k q) = A (ix2 k q) := by
  have f := idx_facts t
  show A (((cfg0.win 5).blk t).view.emb (ix2 k q)) = A (ix2 k q)
  refine congrArg A (funext fun a => Fin.ext ?_)
  match a with
  | ⟨0, _⟩ => show win0_5.index t (0 : Fin 2) * 64 + 1 * k.val = k.val; omega
  | ⟨1, _⟩ => show win0_5.index t (1 : Fin 2) * 64 + 1 * q.val = q.val; omega

/-- Window 5 stages the array `main_arg4`. -/
theorem arr5 : Pipeline.arrRef spec0 5 = main_arg4 := rfl

theorem read_w2 (c : Dev nD) (t : Fin cfg0.N) (k q : Fin 64) : iblk m c 5 t (ix2 k q) = V m c main_arg4 (ix2 k q) :=
  whole5 (V m c main_arg4) t k q

end Cert.KernelReads

end
-- ==== Proof.KernelValue.lean ====
/-
  The kernel's result array, as one function of the arrays its region finds.

  The kernel runs its body at 25 grid points.  At point `t` the three feature windows hold rows
  `4000·t … 4000·t + 3999` of the three feature arrays, the three weight windows hold the whole weight matrices, and the
  body's result is written back as rows `4000·t … 4000·t + 3999` (all 192 columns) of the output.  Entry by entry
  that block is the same sum as the corresponding entry of `Cert.Spec.out` of the whole arrays, because a row of a
  product depends only on the same row of the left operand.  The 25 blocks tile the output (the row `r` is in the block
  of point `r / 4000`), so after the run the output array is `Cert.Spec.out` of the arrays as the region finds them.
-/
import proofs.«112964_j41601053229994_2_alg».proof.Proof.Gen.KernelIdeal.Value
import proofs.«112964_j41601053229994_2_alg».proof.Proof.KernelReads

set_option maxRecDepth 16384

noncomputable section

namespace Cert.KernelValue

open Cert.KernelIdeal Cert.KernelIdeal.Gen Idealize.ShloMosaic Idealize.ShloMosaic.TcCoe Idealize.SL.Sem
open Idealize.ShloMosaic.ValueIdx Cert.KernelReads
open Idealize.ShloMosaic.Pipeline (Dat)

-- the fold of the host operations is cited, never computed
attribute [local irreducible] StableHlo.after

variable (m : (ℓ : Loc nD τ sig) → Buf (Elt Ideal) ℓ) (ρ : Dev nD → PrngReg)

/-! ## From the blocks to the array -/

/-- The output array the specification gives from the arrays as the region finds them. -/
abbrev result (c : Dev nD) : FVec Ideal Cert.ReferenceIdeal.S100000x192 .f32 :=
  Cert.Spec.out (V m c main_arg0) (V m c main_v35) (V m c main_v51) (V m c main_arg2) (V m c main_arg3) (V m c main_arg4)

/-- What point `t` writes back is block `t` of `result`. -/
theorem flushed_eq (c : Dev nD) (t : Fin cfg0.N) :
    (dats m 0 c).flushed 6 t = ((cfg0.win 6).blk t).view.read (Elt Ideal) (result m c) := by
  rw [Cert.KernelIdeal.Value.flushed6]
  unfold out0_6
  rw [View.canon_unit_zero hz]
  simp only [View.ld_unit_zero (S := S4000x64) hz, View.ld_unit_zero (S := S64x64) hz]
  obtain ⟨-, -, -, -, -, -, -, -, -, -, -, -, f60, f61⟩ := idx_facts t
  have ht : t.val < 25 := lt_of_lt_of_eq t.isLt N_0
  funext j
  show k0_pay1 (F := Ideal) (iblk m c 0 t) (iblk m c 1 t) (iblk m c 2 t) (iblk m c 3 t) (iblk m c 4 t) (iblk m c 5 t) j
    = result m c (((cfg0.win 6).blk t).view.emb j)
  have hj0 : (j 0).val < 4000 := (j 0).isLt
  have hj1 : (j 1).val < 192 := (j 1).isLt
  -- the index inside the block, and the index of the array it lands on, by their coordinates
  have ej : j = ix2 (⟨(j 0).val, hj0⟩ : Fin 4000) (⟨(j 1).val, hj1⟩ : Fin 192) := by
    funext a
    match a with
    | ⟨0, _⟩ => rfl
    | ⟨1, _⟩ => rfl
  have ee : ((cfg0.win 6).blk t).view.emb j
      = ix2 (⟨t.val * 4000 + (j 0).val, by omega⟩ : Fin 100000) (⟨(j 1).val, hj1⟩ : Fin 192) := by
    funext a; apply Fin.ext
    match a with
    | ⟨0, _⟩ => show win0_6.index t (0 : Fin 2) * 4000 + 1 * (j 0).val = t.val * 4000 + (j 0).val; omega
    | ⟨1, _⟩ => show win0_6.index t (1 : Fin 2) * 192 + 1 * (j 1).val = (j 1).val; omega
  rw [ee]
  refine (congrArg (k0_pay1 (F := Ideal) (iblk m c 0 t) (iblk m c 1 t) (iblk m c 2 t) (iblk m c 3 t) (iblk m c 4 t) (iblk m c 5 t)) ej).trans ?_
  exact block_entry (iblk m c 0 t) (iblk m c 1 t) (iblk m c 2 t) (iblk m c 3 t) (iblk m c 4 t) (iblk m c 5 t)
    (V m c main_arg0) (V m c main_v35) (V m c main_v51) (V m c main_arg2) (V m c main_arg3) (V m c main_arg4) (t.val * 4000)
    (fun p r k hr => read_feat0 m c t p r k hr) (fun p r k hr => read_feat1 m c t p r k hr) (fun p r k hr => read_feat2 m c t p r k hr)
    (fun k q => read_w0 m c t k q) (fun k q => read_w1 m c t k q) (fun k q => read_w2 m c t k q)
    ⟨(j 0).val, hj0⟩ ⟨(j 1).val, hj1⟩ ⟨t.val * 4000 + (j 0).val, by omega⟩ ⟨(j 1).val, hj1⟩ rfl rfl

/-- An index of the output is in point `t`'s block iff each coordinate is in the block's range on its axis. -/
theorem mem_blk (t : Fin cfg0.N) (i : S100000x192.Idx) :
    i ∈ ((cfg0.win 6).blk t).view.set ↔ ∀ a : Fin 2, win0_6.index t a * S4000x192.size a ≤ (i a).val ∧ (i a).val < win0_6.index t a * S4000x192.size a + S4000x192.size a := by
  show i ∈ ((View.whole main_v52).slice (win0_6.rect t)).set ↔ _
  rw [View.set_slice_whole, Rect.mem_set_unit]
  exact Iff.rfl

/-- The 25 blocks tile the output: row `r` is in the block of point `r / 4000`. -/
theorem cover (i : S100000x192.Idx) : ∃ t : Fin cfg0.N, (cfg0.win 6).flush t = true ∧ i ∈ ((cfg0.win 6).blk t).view.set := by
  have hi0 : (i 0).val < 100000 := (i 0).isLt
  have hi1 : (i 1).val < 192 := (i 1).isLt
  have hN : (i 0).val / 4000 < cfg0.N := lt_of_lt_of_eq (by omega : (i 0).val / 4000 < 25) N_0.symm
  refine ⟨⟨(i 0).val / 4000, hN⟩, flush0_6 _, ?_⟩
  obtain ⟨-, -, -, -, -, -, -, -, -, -, -, -, f60, f61⟩ := idx_facts ⟨(i 0).val / 4000, hN⟩
  have f60' : win0_6.index ⟨(i 0).val / 4000, hN⟩ (0 : Fin 2) = (i 0).val / 4000 := f60
  rw [mem_blk]
  intro a
  match a with
  | ⟨0, _⟩ => show win0_6.index ⟨(i 0).val / 4000, hN⟩ (0 : Fin 2) * 4000 ≤ (i 0).val ∧ (i 0).val < win0_6.index ⟨(i 0).val / 4000, hN⟩ (0 : Fin 2) * 4000 + 4000; omega
  | ⟨1, _⟩ => show win0_6.index ⟨(i 0).val / 4000, hN⟩ (1 : Fin 2) * 192 ≤ (i 1).val ∧ (i 1).val < win0_6.index ⟨(i 0).val / 4000, hN⟩ (1 : Fin 2) * 192 + 192; omega

/-- After the run the output array is `result`. -/
theorem final (c : Dev nD) : (dats m 0 c).arrAt 6 cfg0.N = result m c :=
  (dats m 0 c).arrAt_eq_of_cover 6 (result m c) (fun t _ => flushed_eq m c t) cover

/-- The kernel's run: every weakly fair execution terminates with the output at `result`, the arguments unchanged. -/
theorem run : θ_run defs (onTc (τ := τ) (main (F := Ideal))) ⟨m, fun _ => 0, ρ⟩ fun r => ∀ c : Dev nD,
      r.2.mem ((c : Thread nD τ).loc main_v52) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩)
    (Cert.KernelIdeal.Value.run_blocks m ρ)

end Cert.KernelValue

end
-- ==== Proof.RefRun.lean ====
/-
  The reference program's run.

  The reference is a straight line of host operations: the edge weights (a leaky rectifier of ten times the weight
  table, gathered by edge type), the weighted in-degree of every node (a scatter-add over the destination indices),
  its clamp at one raised to the power -1/2, two propagation hops (scale the rows, gather them along the source
  indices, scatter-add them along the destination indices, scale again), the three products with the weight matrices
  and their concatenation along the columns.  The rectifier and the clamp are module-local functions; their bodies are
  listed here at the call sites, over the buffers each call names.

  `ops` is that line as a list, `main_eq` says the printed program is the list run in order, and `run_main` that every
  weakly fair execution ends with each buffer at the fold of the operations over the launch contents.
-/
import proofs.«112964_j41601053229994_2_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's 73 host operations, in order. -/
abbrev ops : List (HloOp τ sig (Elt F)) :=
  [ StableHlo.nullary main_cst (constant S_ .f32 0x41200000#32),
    StableHlo.unary main_cst main_v0 (broadcastInDim S8x1 ![] bcast_S_S8x1 : (⟨S_, .f32⟩ : BufTy).Contents (Elt F) → (⟨S8x1, .f32⟩ : BufTy).Contents (Elt F)),
    StableHlo.binary main_arg1 main_v0 main_v1 (mulf : (⟨S8x1, .f32⟩ : BufTy).Contents (Elt F) → (⟨S8x1, .f32⟩ : BufTy).Contents (Elt F) → (⟨S8x1, .f32⟩ : BufTy).Contents (Elt F)),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S8x1, .f32⟩) (broadcastInDim S8x1 ![] bcast_S_S8x1),
    StableHlo.TRef.binary (.of main_v1 : StableHlo.TRef sig ⟨S8x1, .f32⟩) (.of main_call0_v0 : StableHlo.TRef sig ⟨S8x1, .f32⟩) (.of main_call0_v1 : StableHlo.TRef sig ⟨S8x1, .i1⟩) (cmpf .oge),
    StableHlo.TRef.nullary (.of main_call0_cst_0 : StableHlo.TRef sig ⟨S_, .f32⟩) (constant S_ .f32 0x3C23D70A#32),
    StableHlo.TRef.unary (.of main_call0_cst_0 : StableHlo.TRef sig ⟨S_, .f32⟩) (.of main_call0_v2 : StableHlo.TRef sig ⟨S8x1, .f32⟩) (broadcastInDim S8x1 ![] bcast_S_S8x1),
    StableHlo.TRef.binary (.of main_call0_v2 : StableHlo.TRef sig ⟨S8x1, .f32⟩) (.of main_v1 : StableHlo.TRef sig ⟨S8x1, .f32⟩) (.of main_call0_v3 : StableHlo.TRef sig ⟨S8x1, .f32⟩) mulf,
    StableHlo.TRef.ternary (.of main_call0_v1 : StableHlo.TRef sig ⟨S8x1, .i1⟩) (.of main_v1 : StableHlo.TRef sig ⟨S8x1, .f32⟩) (.of main_call0_v3 : StableHlo.TRef sig ⟨S8x1, .f32⟩) (.of main_v2 : StableHlo.TRef sig ⟨S8x1, .f32⟩) select,
    StableHlo.nullary main_c (constantI S_ 32 1#32),
    StableHlo.unary main_c main_v3 (broadcastInDim S1000000 ![] bcast_S_S1000000 : (⟨S_, .i32⟩ : BufTy).Contents (Elt F) → (⟨S1000000, .i32⟩ : BufTy).Contents (Elt F)),
    StableHlo.binary main_arg7 main_v3 main_v4 (subi : (⟨S1000000, .i32⟩ : BufTy).Contents (Elt F) → (⟨S1000000, .i32⟩ : BufTy).Contents (Elt F) → (⟨S1000000, .i32⟩ : BufTy).Contents (Elt F)),
    StableHlo.nullary main_c_0 (constantI S_ 32 0#32),
    StableHlo.unary main_c_0 main_v5 (broadcastInDim S1000000 ![] bcast_S_S1000000 : (⟨S_, .i32⟩ : BufTy).Contents (Elt F) → (⟨S1000000, .i32⟩ : BufTy).Contents (Elt F)),
    StableHlo.binary main_v4 main_v5 main_v6 (cmpi .slt : (⟨S1000000, .i32⟩ : BufTy).Contents (Elt F) → (⟨S1000000, .i32⟩ : BufTy).Contents (Elt F) → (⟨S1000000, .i1⟩ : BufTy).Contents (Elt F)),
    StableHlo.nullary main_c_1 (constantI S_ 32 8#32),
    StableHlo.unary main_c_1 main_v7 (broadcastInDim S1000000 ![] bcast_S_S1000000 : (⟨S_, .i32⟩ : BufTy).Contents (Elt F) → (⟨S1000000, .i32⟩ : BufTy).Contents (Elt F)),
    StableHlo.binary main_v4 main_v7 main_v8 (addi : (⟨S1000000, .i32⟩ : BufTy).Contents (Elt F) → (⟨S1000000, .i32⟩ : BufTy).Contents (Elt F) → (⟨S1000000, .i32⟩ : BufTy).Contents (Elt F)),
    StableHlo.ternary main_v6 main_v8 main_v4 main_v9 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v9 main_v10 (broadcastInDim S1000000x1 ![0] bcast_S1000000_S1000000x1_0 : (⟨S1000000, .i32⟩ : BufTy).Contents (Elt F) → (⟨S1000000x1, .i32⟩ : BufTy).Contents (Elt F)),
    StableHlo.binary main_v2 main_v10 main_v11 ((fun x i => Host.gather gather_S8x1_S1000000x1_S1000000x1_1_0_n_n_0_1_11 x i) : (⟨S8x1, .f32⟩ : BufTy).Contents (Elt F) → (⟨S1000000x1, .i32⟩ : BufTy).Contents (Elt F) → (⟨S1000000x1, .f32⟩ : BufTy).Contents (Elt F)),
    StableHlo.reshape main_v11 main_v12 rfl shapeCasts_S1000000x1_S1000000,
    StableHlo.nullary main_cst_2 (constant S_ .f32 0x00000000#32),
    StableHlo.unary main_cst_2 main_v13 (broadcastInDim S100000 ![] bcast_S_S100000 : (⟨S_, .f32⟩ : BufTy).Contents (Elt F) → (⟨S100000, .f32⟩ : BufTy).Contents (Elt F)),
    StableHlo.unary main_arg6 main_v14 (broadcastInDim S1000000x1 ![0] bcast_S1000000_S1000000x1_0 : (⟨S1000000, .i32⟩ : BufTy).Contents (Elt F) → (⟨S1000000x1, .i32⟩ : BufTy).Contents (Elt F)),
    StableHlo.ternary main_v13 main_v14 main_v12 main_v15 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_cst_3 (constant S_ .f32 0x3F800000#32),
    StableHlo.TRef.unary (.of main_cst_3 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S100000, .f32⟩) (broadcastInDim S100000 ![] bcast_S_S100000),
    StableHlo.TRef.binary (.of main_call1_v1 : StableHlo.TRef sig ⟨S100000, .f32⟩) (.of main_v15 : StableHlo.TRef sig ⟨S100000, .f32⟩) (.of main_v16 : StableHlo.TRef sig ⟨S100000, .f32⟩) maximumf,
    StableHlo.nullary main_cst_4 (constant S_ .f32 0xBF000000#32),
    StableHlo.unary main_cst_4 main_v17 (broadcastInDim S100000 ![] bcast_S_S100000 : (⟨S_, .f32⟩ : BufTy).Contents (Elt F) → (⟨S100000, .f32⟩ : BufTy).Contents (Elt F)),
    StableHlo.binary main_v16 main_v17 main_v18 (Host.powf : (⟨S100000, .f32⟩ : BufTy).Contents (Elt F) → (⟨S100000, .f32⟩ : BufTy).Contents (Elt F) → (⟨S100000, .f32⟩ : BufTy).Contents (Elt F)),
    StableHlo.unary main_v18 main_v19 (broadcastInDim S100000x1 ![0] bcast_S100000_S100000x1_0 : (⟨S100000, .f32⟩ : BufTy).Contents (Elt F) → (⟨S100000x1, .f32⟩ : BufTy).Contents (Elt F)),
    StableHlo.binary main_arg0 main_arg2 main_v20 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v19 main_v21 (broadcastInDim S100000x64 ![0, 1] bcast_S100000x1_S100000x64_0_1 : (⟨S100000x1, .f32⟩ : BufTy).Contents (Elt F) → (⟨S100000x64, .f32⟩ : BufTy).Contents (Elt F)),
    StableHlo.binary main_arg0 main_v21 main_v22 (mulf : (⟨S100000x64, .f32⟩ : BufTy).Contents (Elt F) → (⟨S100000x64, .f32⟩ : BufTy).Contents (Elt F) → (⟨S100000x64, .f32⟩ : BufTy).Contents (Elt F)),
    StableHlo.nullary main_c_5 (constantI S_ 32 0#32),
    StableHlo.unary main_c_5 main_v23 (broadcastInDim S1000000 ![] bcast_S_S1000000 : (⟨S_, .i32⟩ : BufTy).Contents (Elt F) → (⟨S1000000, .i32⟩ : BufTy).Contents (Elt F)),
    StableHlo.binary main_arg5 main_v23 main_v24 (cmpi .slt : (⟨S1000000, .i32⟩ : BufTy).Contents (Elt F) → (⟨S1000000, .i32⟩ : BufTy).Contents (Elt F) → (⟨S1000000, .i1⟩ : BufTy).Contents (Elt F)),
    StableHlo.nullary main_c_6 (constantI S_ 32 100000#32),
    StableHlo.unary main_c_6 main_v25 (broadcastInDim S1000000 ![] bcast_S_S1000000 : (⟨S_, .i32⟩ : BufTy).Contents (Elt F) → (⟨S1000000, .i32⟩ : BufTy).Contents (Elt F)),
    StableHlo.binary main_arg5 main_v25 main_v26 (addi : (⟨S1000000, .i32⟩ : BufTy).Contents (Elt F) → (⟨S1000000, .i32⟩ : BufTy).Contents (Elt F) → (⟨S1000000, .i32⟩ : BufTy).Contents (Elt F)),
    StableHlo.ternary main_v24 main_v26 main_arg5 main_v27 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v27 main_v28 (broadcastInDim S1000000x1 ![0] bcast_S1000000_S1000000x1_0 : (⟨S1000000, .i32⟩ : BufTy).Contents (Elt F) → (⟨S1000000x1, .i32⟩ : BufTy).Contents (Elt F)),
    StableHlo.binary main_v22 main_v28 main_v29 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.nullary main_cst_7 (constant S_ .f32 0x00000000#32),
    StableHlo.unary main_cst_7 main_v30 (broadcastInDim S100000x64 ![] bcast_S_S100000x64 : (⟨S_, .f32⟩ : BufTy).Contents (Elt F) → (⟨S100000x64, .f32⟩ : BufTy).Contents (Elt F)),
    StableHlo.unary main_arg6 main_v31 (broadcastInDim S1000000x1 ![0] bcast_S1000000_S1000000x1_0 : (⟨S1000000, .i32⟩ : BufTy).Contents (Elt F) → (⟨S1000000x1, .i32⟩ : BufTy).Contents (Elt F)),
    StableHlo.ternary main_v30 main_v31 main_v29 main_v32 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.unary main_v19 main_v33 (broadcastInDim S100000x64 ![0, 1] bcast_S100000x1_S100000x64_0_1 : (⟨S100000x1, .f32⟩ : BufTy).Contents (Elt F) → (⟨S100000x64, .f32⟩ : BufTy).Contents (Elt F)),
    StableHlo.binary main_v32 main_v33 main_v34 (mulf : (⟨S100000x64, .f32⟩ : BufTy).Contents (Elt F) → (⟨S100000x64, .f32⟩ : BufTy).Contents (Elt F) → (⟨S100000x64, .f32⟩ : BufTy).Contents (Elt F)),
    StableHlo.binary main_v34 main_arg3 main_v35 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v19 main_v36 (broadcastInDim S100000x64 ![0, 1] bcast_S100000x1_S100000x64_0_1 : (⟨S100000x1, .f32⟩ : BufTy).Contents (Elt F) → (⟨S100000x64, .f32⟩ : BufTy).Contents (Elt F)),
    StableHlo.binary main_v34 main_v36 main_v37 (mulf : (⟨S100000x64, .f32⟩ : BufTy).Contents (Elt F) → (⟨S100000x64, .f32⟩ : BufTy).Contents (Elt F) → (⟨S100000x64, .f32⟩ : BufTy).Contents (Elt F)),
    StableHlo.nullary main_c_8 (constantI S_ 32 0#32),
    StableHlo.unary main_c_8 main_v38 (broadcastInDim S1000000 ![] bcast_S_S1000000 : (⟨S_, .i32⟩ : BufTy).Contents (Elt F) → (⟨S1000000, .i32⟩ : BufTy).Contents (Elt F)),
    StableHlo.binary main_arg5 main_v38 main_v39 (cmpi .slt : (⟨S1000000, .i32⟩ : BufTy).Contents (Elt F) → (⟨S1000000, .i32⟩ : BufTy).Contents (Elt F) → (⟨S1000000, .i1⟩ : BufTy).Contents (Elt F)),
    StableHlo.nullary main_c_9 (constantI S_ 32 100000#32),
    StableHlo.unary main_c_9 main_v40 (broadcastInDim S1000000 ![] bcast_S_S1000000 : (⟨S_, .i32⟩ : BufTy).Contents (Elt F) → (⟨S1000000, .i32⟩ : BufTy).Contents (Elt F)),
    StableHlo.binary main_arg5 main_v40 main_v41 (addi : (⟨S1000000, .i32⟩ : BufTy).Contents (Elt F) → (⟨S1000000, .i32⟩ : BufTy).Contents (Elt F) → (⟨S1000000, .i32⟩ : BufTy).Contents (Elt F)),
    StableHlo.ternary main_v39 main_v41 main_arg5 main_v42 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v42 main_v43 (broadcastInDim S1000000x1 ![0] bcast_S1000000_S1000000x1_0 : (⟨S1000000, .i32⟩ : BufTy).Contents (Elt F) → (⟨S1000000x1, .i32⟩ : BufTy).Contents (Elt F)),
    StableHlo.binary main_v37 main_v43 main_v44 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.nullary main_cst_10 (constant S_ .f32 0x00000000#32),
    StableHlo.unary main_cst_10 main_v45 (broadcastInDim S100000x64 ![] bcast_S_S100000x64 : (⟨S_, .f32⟩ : BufTy).Contents (Elt F) → (⟨S100000x64, .f32⟩ : BufTy).Contents (Elt F)),
    StableHlo.unary main_arg6 main_v46 (broadcastInDim S1000000x1 ![0] bcast_S1000000_S1000000x1_0 : (⟨S1000000, .i32⟩ : BufTy).Contents (Elt F) → (⟨S1000000x1, .i32⟩ : BufTy).Contents (Elt F)),
    StableHlo.ternary main_v45 main_v46 main_v44 main_v47 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.unary main_v19 main_v48 (broadcastInDim S100000x64 ![0, 1] bcast_S100000x1_S100000x64_0_1 : (⟨S100000x1, .f32⟩ : BufTy).Contents (Elt F) → (⟨S100000x64, .f32⟩ : BufTy).Contents (Elt F)),
    StableHlo.binary main_v47 main_v48 main_v49 (mulf : (⟨S100000x64, .f32⟩ : BufTy).Contents (Elt F) → (⟨S100000x64, .f32⟩ : BufTy).Contents (Elt F) → (⟨S100000x64, .f32⟩ : BufTy).Contents (Elt F)),
    StableHlo.binary main_v49 main_arg4 main_v50 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nary ![main_v20, main_v35, main_v50] main_v51 (fun u => concatenate S100000x192 1 [⟨S100000x64, u 0⟩, ⟨S100000x64, u 1⟩, ⟨S100000x64, u 2⟩] concatenates_S100000x64_S100000x64_S100000x64_S100000x192_d1) ]

set_option maxHeartbeats 4000000 in  -- seventy-three binds reassociated, each operation carrying its full type
set_option maxRecDepth 4096 in
/-- The printed program is that line: the two windows and the called functions unfolded, sequencing reassociated. -/
theorem main_eq (c : Dev nD) : main (F := F) c = seq ops := by
  simp only [main, main_part0, main_part1, fn_leaky_relu.body, fn_where.body, fn_clip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub ..,
    StableHlo.nullary_bufs_sub .., StableHlo.unary_bufs_sub .., StableHlo.binary_bufs_sub .., StableHlo.ternary_bufs_sub .., StableHlo.nullary_bufs_sub .., StableHlo.unary_bufs_sub ..,
    StableHlo.binary_bufs_sub .., StableHlo.nullary_bufs_sub .., StableHlo.unary_bufs_sub .., StableHlo.binary_bufs_sub .., StableHlo.nullary_bufs_sub .., StableHlo.unary_bufs_sub ..,
    StableHlo.binary_bufs_sub .., StableHlo.ternary_bufs_sub .., StableHlo.unary_bufs_sub .., StableHlo.binary_bufs_sub .., StableHlo.reshape_bufs_sub .., StableHlo.nullary_bufs_sub ..,
    StableHlo.unary_bufs_sub .., StableHlo.unary_bufs_sub .., StableHlo.ternary_bufs_sub .., StableHlo.nullary_bufs_sub .., StableHlo.unary_bufs_sub .., StableHlo.unary_bufs_sub ..,
    StableHlo.binary_bufs_sub .., StableHlo.nullary_bufs_sub .., StableHlo.unary_bufs_sub .., StableHlo.binary_bufs_sub .., StableHlo.unary_bufs_sub .., StableHlo.binary_bufs_sub ..,
    StableHlo.unary_bufs_sub .., StableHlo.binary_bufs_sub .., StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.unary_bufs_sub .., StableHlo.binary_bufs_sub .., StableHlo.nullary_bufs_sub ..,
    StableHlo.unary_bufs_sub .., StableHlo.unary_bufs_sub .., StableHlo.ternary_bufs_sub .., StableHlo.unary_bufs_sub .., StableHlo.binary_bufs_sub .., StableHlo.binary_bufs_sub ..,
    StableHlo.unary_bufs_sub .., StableHlo.binary_bufs_sub .., StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.unary_bufs_sub .., StableHlo.binary_bufs_sub .., StableHlo.nullary_bufs_sub ..,
    StableHlo.unary_bufs_sub .., StableHlo.unary_bufs_sub .., StableHlo.ternary_bufs_sub .., StableHlo.unary_bufs_sub .., StableHlo.binary_bufs_sub .., StableHlo.binary_bufs_sub ..,
    StableHlo.nary_bufs_sub ..⟩

/-- Every weakly fair execution of the reference terminates, and ends with each buffer at the fold of the operations
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefRun

end
-- ==== Proof.LibNary3.lean ====
/-
  A host operation on a literal family of THREE operands (a concatenation of three arrays), read at its result.

  The operation's result buffer holds its function of the family of the operands' contents. Stated with each
  operand's contents read AT ITS OWN REFERENCE — `Fin.cons (F a₀) (Fin.cons (F a₁) (Fin.cons (F a₂) …))` in place of
  `fun k => F (![a₀, a₁, a₂] k)` — so that the contents of the three operands can go on being rewritten one reference
  at a time (under the binder `![a₀, a₁, a₂] k` is no literal reference). The function applied to that family is then
  its body with `u 0`, `u 1`, `u 2` read as the three contents, by `rfl`.
-/
import Idealize.ShloMosaic.Lib.StableHlo.Run

noncomputable section

namespace Cert.LibNary3

open Idealize.ShloMosaic Idealize.ShloMosaic.StableHlo Idealize.SL.Sem

variable {τ : Topo} {sig : RefSig} {Val : EltTy → Type}

/-- The result of a three-operand operation at its result reference. -/
theorem nary3_result (x a b y : Ref sig .tc)
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.LibNary3

end
-- ==== Proof.HostChain.lean ====
/-
  The two programs compute the same hop features before their last stage.

  Both programs run the same host operations on the same inputs up to the features after one and two propagation
  hops: the edge weights, the weighted in-degrees, their clamp at one raised to the power -1/2, and per hop the row
  scaling, the gather along the source indices, the scatter-add along the destination indices and the second row
  scaling.  The kernel's program differs in one respect only: around each gather it narrows the scaled features to a
  sixteen-bit format and widens the gathered rows back, and on the extended reals a change of float format is the
  identity.  So, read back operation by operation, the kernel's arrays `h1`, `h2` as its region finds them are the
  reference's arrays `h1`, `h2`; nothing in the chain is opened (the gathers, the scatter-adds and the power stay
  whole on both sides).

  The reference's last stage — three products and their concatenation — is `Cert.Spec.out` of those arrays by
  definition.
-/
import proofs.«112964_j41601053229994_2_alg».proof.Proof.Gen.KernelIdeal.Frame
import proofs.«112964_j41601053229994_2_alg».proof.Proof.RefRun
import proofs.«112964_j41601053229994_2_alg».proof.Proof.Spec
import proofs.«112964_j41601053229994_2_alg».proof.Proof.LibNary3
import Idealize.ShloMosaic.Lib.StableHlo.Run
import Idealize.ShloMosaic.Lib.ValueIdx

noncomputable section

namespace Cert.HostChain

open Idealize.ShloMosaic Idealize.ShloMosaic.TcCoe Idealize.SL.Sem Idealize.ShloMosaic.StableHlo

/-- On the extended reals narrowing a vector's float format changes nothing. -/
theorem truncf_id {s : Shape} {φ ψ : FTy} (a : FVec Ideal s φ) (h : ψ.bits < φ.bits) : truncf ψ a h = (a : FVec Ideal s ψ) := rfl

/-- Nor does widening it. -/
theorem extf_id {s : Shape} {φ ψ : FTy} (a : FVec Ideal s φ) (h : φ.bits < ψ.bits) : extf ψ a h = (a : FVec Ideal s ψ) := rfl

/-- A three-operand operation at its result buffer, in the form a simplifier pass matches. -/
theorem nary3_result' {τ : Topo} {sig : RefSig} {Val : EltTy → Type} (x a b y : Ref sig .tc)
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  Cert.LibNary3.nary3_result x a b y f hxs hy F

/-- Read every buffer of a literal line of host operations back to the line's inputs, in one pass. -/
macro "host_results" : tactic =>
  `(tactic| (simp (disch := decide) only [after_cons, after_nil,
      nullary_result', unary_result', binary_result', ternary_result', reshape_result', Cert.HostChain.nary3_result',
      nullary_result_ne', unary_result_ne', binary_result_ne', ternary_result_ne', reshape_result_ne', nary_result_ne']))

/-! ## The reference's last stage -/

section Reference

open Cert.ReferenceIdeal Cert.ReferenceIdeal.Gen Cert.RefRun

set_option maxHeartbeats 4000000 in
set_option maxRecDepth 8192 in
/-- The reference's result buffer holds `Cert.Spec.out` of the input features, of its own two hop-feature buffers and
    of the three weight matrices. -/
theorem ref_out (W : Valuation τ sig (Elt Ideal)) :
    (after (ops (F := Ideal)) W (Proc.devRef .tc main_v51) : FVec Ideal S100000x192 .f32)
      = Cert.Spec.out (W (Proc.devRef .tc main_arg0)) (after (ops (F := Ideal)) W (Proc.devRef .tc main_v34)) (after (ops (F := Ideal)) W (Proc.devRef .tc main_v49))
          (W (Proc.devRef .tc main_arg2)) (W (Proc.devRef .tc main_arg3)) (W (Proc.devRef .tc main_arg4)) := by
  unfold Cert.Spec.out
  host_results
  rfl

/-! No operation of the line writes an argument buffer: each ends as it was launched. -/

set_option maxHeartbeats 4000000 in
set_option maxRecDepth 8192 in
theorem ref_kept0 (W : Valuation τ sig (Elt Ideal)) :
    after (ops (F := Ideal)) W (Proc.devRef .tc main_arg0) = W (Proc.devRef .tc main_arg0) := by
  host_results

set_option maxHeartbeats 4000000 in
set_option maxRecDepth 8192 in
theorem ref_kept1 (W : Valuation τ sig (Elt Ideal)) :
    after (ops (F := Ideal)) W (Proc.devRef .tc main_arg1) = W (Proc.devRef .tc main_arg1) := by
  host_results

set_option maxHeartbeats 4000000 in
set_option maxRecDepth 8192 in
theorem ref_kept2 (W : Valuation τ sig (Elt Ideal)) :
    after (ops (F := Ideal)) W (Proc.devRef .tc main_arg2) = W (Proc.devRef .tc main_arg2) := by
  host_results

set_option maxHeartbeats 4000000 in
set_option maxRecDepth 8192 in
theorem ref_kept3 (W : Valuation τ sig (Elt Ideal)) :
    after (ops (F := Ideal)) W (Proc.devRef .tc main_arg3) = W (Proc.devRef .tc main_arg3) := by
  host_results

set_option maxHeartbeats 4000000 in
set_option maxRecDepth 8192 in
theorem ref_kept4 (W : Valuation τ sig (Elt Ideal)) :
    after (ops (F := Ideal)) W (Proc.devRef .tc main_arg4) = W (Proc.devRef .tc main_arg4) := by
  host_results

set_option maxHeartbeats 4000000 in
set_option maxRecDepth 8192 in
theorem ref_kept5 (W : Valuation τ sig (Elt Ideal)) :
    after (ops (F := Ideal)) W (Proc.devRef .tc main_arg5) = W (Proc.devRef .tc main_arg5) := by
  host_results

set_option maxHeartbeats 4000000 in
set_option maxRecDepth 8192 in
theorem ref_kept6 (W : Valuation τ sig (Elt Ideal)) :
    after (ops (F := Ideal)) W (Proc.devRef .tc main_arg6) = W (Proc.devRef .tc main_arg6) := by
  host_results

set_option maxHeartbeats 4000000 in
set_option maxRecDepth 8192 in
theorem ref_kept7 (W : Valuation τ sig (Elt Ideal)) :
    after (ops (F := Ideal)) W (Proc.devRef .tc main_arg7) = W (Proc.devRef .tc main_arg7) := by
  host_results

end Reference

/-! ## The hop features agree -/

attribute [local irreducible] Host.gather Host.scatterAdd in
set_option maxHeartbeats 4000000 in
set_option maxRecDepth 8192 in
/-- The features after one hop: the kernel's array as its region finds it is the reference's buffer, from inputs that
    agree. -/
theorem h1_eq (Wk : Valuation Cert.KernelIdeal.τ Cert.KernelIdeal.sig (Elt Ideal)) (Wr : Valuation Cert.ReferenceIdeal.τ Cert.ReferenceIdeal.sig (Elt Ideal))
    (a0 : (Wr (Proc.devRef .tc Cert.ReferenceIdeal.main_arg0) : FVec Ideal Cert.ReferenceIdeal.S100000x64 .f32) = Wk (Proc.devRef .tc Cert.KernelIdeal.main_arg0))
    (a1 : (Wr (Proc.devRef .tc Cert.ReferenceIdeal.main_arg1) : FVec Ideal Cert.ReferenceIdeal.S8x1 .f32) = Wk (Proc.devRef .tc Cert.KernelIdeal.main_arg1))
    (a5 : (Wr (Proc.devRef .tc Cert.ReferenceIdeal.main_arg5) : (⟨Cert.ReferenceIdeal.S1000000, .i32⟩ : BufTy).Contents (Elt Ideal)) = Wk (Proc.devRef .tc Cert.KernelIdeal.main_arg5))
    (a6 : (Wr (Proc.devRef .tc Cert.ReferenceIdeal.main_arg6) : (⟨Cert.ReferenceIdeal.S1000000, .i32⟩ : BufTy).Contents (Elt Ideal)) = Wk (Proc.devRef .tc Cert.KernelIdeal.main_arg6))
    (a7 : (Wr (Proc.devRef .tc Cert.ReferenceIdeal.main_arg7) : (⟨Cert.ReferenceIdeal.S1000000, .i32⟩ : BufTy).Contents (Elt Ideal)) = Wk (Proc.devRef .tc Cert.KernelIdeal.main_arg7)) :
    (after (List.flatten [Cert.KernelIdeal.Gen.hostOps0 (F := Ideal), Cert.KernelIdeal.Gen.hostOps0_1, Cert.KernelIdeal.Gen.hostOps0_2, Cert.KernelIdeal.Gen.hostOps0_3, Cert.KernelIdeal.Gen.hostOps0_4]) Wk (Proc.devRef .tc Cert.KernelIdeal.main_v35) : FVec Ideal Cert.ReferenceIdeal.S100000x64 .f32)
      = after (Cert.RefRun.ops (F := Ideal)) Wr (Proc.devRef .tc Cert.ReferenceIdeal.main_v34) := by
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.RefRun.ops,
    List.flatten_cons, List.flatten_nil, List.append_nil, List.cons_append, List.nil_append]
  host_results
  simp only [truncf_id, extf_id]
  rw [a0, a1, a5, a6, a7]
  rfl

attribute [local irreducible] Host.gather Host.scatterAdd in
set_option maxHeartbeats 4000000 in
set_option maxRecDepth 8192 in
/-- The features after two hops, likewise. -/
theorem h2_eq (Wk : Valuation Cert.KernelIdeal.τ Cert.KernelIdeal.sig (Elt Ideal)) (Wr : Valuation Cert.ReferenceIdeal.τ Cert.ReferenceIdeal.sig (Elt Ideal))
    (a0 : (Wr (Proc.devRef .tc Cert.ReferenceIdeal.main_arg0) : FVec Ideal Cert.ReferenceIdeal.S100000x64 .f32) = Wk (Proc.devRef .tc Cert.KernelIdeal.main_arg0))
    (a1 : (Wr (Proc.devRef .tc Cert.ReferenceIdeal.main_arg1) : FVec Ideal Cert.ReferenceIdeal.S8x1 .f32) = Wk (Proc.devRef .tc Cert.KernelIdeal.main_arg1))
    (a5 : (Wr (Proc.devRef .tc Cert.ReferenceIdeal.main_arg5) : (⟨Cert.ReferenceIdeal.S1000000, .i32⟩ : BufTy).Contents (Elt Ideal)) = Wk (Proc.devRef .tc Cert.KernelIdeal.main_arg5))
    (a6 : (Wr (Proc.devRef .tc Cert.ReferenceIdeal.main_arg6) : (⟨Cert.ReferenceIdeal.S1000000, .i32⟩ : BufTy).Contents (Elt Ideal)) = Wk (Proc.devRef .tc Cert.KernelIdeal.main_arg6))
    (a7 : (Wr (Proc.devRef .tc Cert.ReferenceIdeal.main_arg7) : (⟨Cert.ReferenceIdeal.S1000000, .i32⟩ : BufTy).Contents (Elt Ideal)) = Wk (Proc.devRef .tc Cert.KernelIdeal.main_arg7)) :
    (after (List.flatten [Cert.KernelIdeal.Gen.hostOps0 (F := Ideal), Cert.KernelIdeal.Gen.hostOps0_1, Cert.KernelIdeal.Gen.hostOps0_2, Cert.KernelIdeal.Gen.hostOps0_3, Cert.KernelIdeal.Gen.hostOps0_4]) Wk (Proc.devRef .tc Cert.KernelIdeal.main_v51) : FVec Ideal Cert.ReferenceIdeal.S100000x64 .f32)
      = after (Cert.RefRun.ops (F := Ideal)) Wr (Proc.devRef .tc Cert.ReferenceIdeal.main_v49) := by
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.RefRun.ops,
    List.flatten_cons, List.flatten_nil, List.append_nil, List.cons_append, List.nil_append]
  host_results
  simp only [truncf_id, extf_id]
  rw [a0, a1, a5, a6, a7]
  rfl

end Cert.HostChain

end
-- ==== Proof.lean ====
/-
  The kernel and its reference compute the same array on the extended reals.

  Both programs take node features, an edge-type weight table, three weight matrices and three integer edge arrays
  (source, destination, edge type).  Both first run the same host operations: the per-edge weights, the weighted
  in-degree of every node, its clamp at one raised to the power -1/2, and two propagation hops (scale the rows, gather
  along the sources, scatter-add along the destinations, scale again), giving the features `h0` (the input), `h1`
  and `h2`.  The reference then forms the three products `h0·w0`, `h1·w1`, `h2·w2` and lays them side by side; the
  kernel does the same 4000 rows at a time in one launch over 25 grid points.

  Read on the extended reals the two differ only where a float format is changed (the identity there) and in how the
  last stage is tiled, and a row of a product depends only on the same row of its left operand; so the two results are
  the same function of the inputs, `Cert.Spec.out h0 h1 h2 w0 w1 w2`, with no law of arithmetic beyond that — in
  particular nothing needs the inputs to be finite.

  The kernel's run is Proof/KernelValue.lean (over the generated frame run), the reference's Proof/RefRun.lean, the
  agreement of the host chains Proof/HostChain.lean.  The idealization rewrote nothing, so `preserves` asks nothing.
-/
import proofs.«112964_j41601053229994_2_alg».proof.Defs
import proofs.«112964_j41601053229994_2_alg».proof.Proof.Gen.Kernel
import proofs.«112964_j41601053229994_2_alg».proof.Proof.Gen.Kernel.Frame
import proofs.«112964_j41601053229994_2_alg».proof.Proof.Gen.KernelIdeal
import proofs.«112964_j41601053229994_2_alg».proof.Proof.Gen.KernelIdeal.Frame
import proofs.«112964_j41601053229994_2_alg».proof.Proof.Gen.KernelIdeal.Value
import proofs.«112964_j41601053229994_2_alg».proof.Proof.Gen.ReferenceIdeal
import proofs.«112964_j41601053229994_2_alg».proof.Proof.Gen.Pre_finite_inputs
import proofs.«112964_j41601053229994_2_alg».proof.Proof.KernelValue
import proofs.«112964_j41601053229994_2_alg».proof.Proof.RefRun
import proofs.«112964_j41601053229994_2_alg».proof.Proof.HostChain
import Idealize.ShloMosaic.Adequacy
import Idealize.ShloMosaic.Init

noncomputable section

namespace Cert.Proof

open Idealize.ShloMosaic Idealize.ShloMosaic.TcCoe Idealize.SL.Sem Idealize.ShloMosaic.StableHlo

-- the folds of host operations are cited, never computed
attribute [local irreducible] StableHlo.after

theorem frame_k : Cert.frame_Kernel := fun m ρ _ => Cert.Kernel.Gen.frame m ρ

theorem frame_ki : Cert.frame_KernelIdeal := fun m ρ _ => Cert.KernelIdeal.Gen.frame m ρ

/-- The reference terminates and leaves its arguments as launched: no operation of its line writes one. -/
theorem frame_ri : Cert.frame_ReferenceIdeal := fun m ρ _ =>
  (θ_run Cert.ReferenceIdeal.defs _ _).mono (fun _ h c =>
    ⟨(h c Cert.ReferenceIdeal.main_arg0).trans (Cert.HostChain.ref_kept0 _),
     (h c Cert.ReferenceIdeal.main_arg1).trans (Cert.HostChain.ref_kept1 _),
     (h c Cert.ReferenceIdeal.main_arg2).trans (Cert.HostChain.ref_kept2 _),
     (h c Cert.ReferenceIdeal.main_arg3).trans (Cert.HostChain.ref_kept3 _),
     (h c Cert.ReferenceIdeal.main_arg4).trans (Cert.HostChain.ref_kept4 _),
     (h c Cert.ReferenceIdeal.main_arg5).trans (Cert.HostChain.ref_kept5 _),
     (h c Cert.ReferenceIdeal.main_arg6).trans (Cert.HostChain.ref_kept6 _),
     (h c Cert.ReferenceIdeal.main_arg7).trans (Cert.HostChain.ref_kept7 _)⟩)
    (Cert.RefRun.run_main (F := Ideal) m ρ)

theorem preserves : Cert.preserves_Kernel_KernelIdeal := trivial

/-- From memories that agree on the arguments both programs end with `Cert.Spec.out` of the same features and
    weights: the kernel by its blocks, the reference by definition, the hop features by the shared host chain. -/
theorem algebraic : Cert.algebraic_KernelIdeal_ReferenceIdeal := by
  intro m ρ m' ρ' _ hagree
  refine ⟨fun c => Cert.KernelValue.result m c, Cert.KernelValue.run m ρ, ?_⟩
  refine (θ_run Cert.ReferenceIdeal.defs _ _).mono (fun r h c => ⟨?_,
     (h c Cert.ReferenceIdeal.main_arg0).trans (Cert.HostChain.ref_kept0 _),
     (h c Cert.ReferenceIdeal.main_arg1).trans (Cert.HostChain.ref_kept1 _),
     (h c Cert.ReferenceIdeal.main_arg2).trans (Cert.HostChain.ref_kept2 _),
     (h c Cert.ReferenceIdeal.main_arg3).trans (Cert.HostChain.ref_kept3 _),
     (h c Cert.ReferenceIdeal.main_arg4).trans (Cert.HostChain.ref_kept4 _),
     (h c Cert.ReferenceIdeal.main_arg5).trans (Cert.HostChain.ref_kept5 _),
     (h c Cert.ReferenceIdeal.main_arg6).trans (Cert.HostChain.ref_kept6 _),
     (h c Cert.ReferenceIdeal.main_arg7).trans (Cert.HostChain.ref_kept7 _)⟩)
    (Cert.RefRun.run_main (F := Ideal) m' ρ')
  obtain ⟨g0, g1, g2, g3, g4, g5, g6, g7⟩ := hagree c
  -- the hop features: the reference's buffers are the arrays the kernel's region finds
  have h1 := Cert.HostChain.h1_eq (fun b => m (c, b)) (launchContents m' c) g0 g1 g5 g6 g7
  have h2 := Cert.HostChain.h2_eq (fun b => m (c, b)) (launchContents m' c) g0 g1 g5 g6 g7
  -- the arguments the last stage reads: as launched on both sides
  have e0 : launchContents m' c (Proc.devRef .tc Cert.ReferenceIdeal.main_arg0) = Cert.KernelIdeal.Gen.V m c Cert.KernelIdeal.main_arg0 := g0.trans (Cert.KernelIdeal.Gen.V_main_arg0 m c).symm
  have e2 : launchContents m' c (Proc.devRef .tc Cert.ReferenceIdeal.main_arg2) = Cert.KernelIdeal.Gen.V m c Cert.KernelIdeal.main_arg2 := g2.trans (Cert.KernelIdeal.Gen.V_main_arg2 m c).symm
  have e3 : launchContents m' c (Proc.devRef .tc Cert.ReferenceIdeal.main_arg3) = Cert.KernelIdeal.Gen.V m c Cert.KernelIdeal.main_arg3 := g3.trans (Cert.KernelIdeal.Gen.V_main_arg3 m c).symm
  have e4 : launchContents m' c (Proc.devRef .tc Cert.ReferenceIdeal.main_arg4) = Cert.KernelIdeal.Gen.V m c Cert.KernelIdeal.main_arg4 := g4.trans (Cert.KernelIdeal.Gen.V_main_arg4 m c).symm
  refine (h c Cert.ReferenceIdeal.main_v51).trans ((Cert.HostChain.ref_out (launchContents m' c)).trans ?_)
  rw [← h1, ← h2, e0, e2, e3, e4]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
